-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x4096 : Shape := ⟨2, ![4, 4096]⟩
abbrev S1x1024 : Shape := ⟨2, ![1, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4x4096x1024 .f32) (main_arg1 : IVec S4x4096 32) (main_arg2 : FVec F S1x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Kernel.lean ====
abbrev S4x4096x1024 : Shape := ⟨3, ![4, 4096, 1024]⟩
abbrev S4x4096 : Shape := ⟨2, ![4, 4096]⟩
abbrev S1x1024 : Shape := ⟨2, ![1, 1024]⟩
abbrev S16384x1024 : Shape := ⟨2, ![16384, 1024]⟩
abbrev S8x1x2048 : Shape := ⟨3, ![8, 1, 2048]⟩
abbrev S1x1x2048 : Shape := ⟨3, ![1, 1, 2048]⟩
abbrev S2048x1024 : Shape := ⟨2, ![2048, 1024]⟩
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1x1024, .f32⟩
  | .hbm, ⟨3, _⟩ => ⟨S16384x1024, .f32⟩
  | .hbm, ⟨4, _⟩ => ⟨S8x1x2048, .i32⟩
  | .hbm, ⟨5, _⟩ => ⟨S16384x1024, .f32⟩
  | .hbm, ⟨6, _⟩ => ⟨S4x4096x1024, .f32⟩
  | .local _ .vmem, ⟨0, _⟩ => ⟨S1x1x2048, .i32⟩
  | .local _ .vmem, ⟨1, _⟩ => ⟨S1x1x2048, .i32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x1024_S16384x1024 : S4x4096x1024.ShapeCasts S16384x1024
  shapeCasts_S4x4096_S8x1x2048 : S4x4096.ShapeCasts S8x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x1024_S1x1024_0_0 : ∀ a, (![0, 0] : Fin 2 → Nat) a + S1x1024.size a ≤ S1x1024.size a
  h_S1x1024 : 0 < S1x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S16384x1024_S4x4096x1024 : S16384x1024.ShapeCasts S4x4096x1024
  dot_S1x2048_S1x1024_S2048x1024_0_0_1_1_n_n_wf : DotDims.WF S1x2048 S1x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048.size a ≤ S8x1x2048.size a
  hwx0_0 : ∀ i : grid0.Coords, EltTy.bits .i32 = 32 ∨ (Rect.block (s := S8x1x2048) S1x1x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x1024.size a
  hwx0_2 : ∀ i : grid0.Coords, EltTy.bits .f32 = 32 ∨ (Rect.block (s := S16384x1024) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x1024.size a
  hwx0_3 : ∀ i : grid0.Coords, EltTy.bits .f32 = 32 ∨ (Rect.block (s := S16384x1024) S2048x1024.size (cc0_transform_3 i) (hinb0_3 i)).WholeWords (EltTy.packing .f32)

variable [Facts₀]

def dot_S1x2048_S1x1024_S2048x1024_0_0_1_1_n_n : DotDims S1x2048 S1x1024 S2048x1024 where
  lhsContracting := [0]
  rhsContracting := [0]
  lhsNonContracting := [1]
  rhsNonContracting := [1]
  lhsBatch := []
  rhsBatch := []
  wf := dot_S1x2048_S1x1024_S2048x1024_0_0_1_1_n_n_wf

abbrev win0_0 : Pipeline.Window sig grid0 :=
  Pipeline.Window.ofSpec (Memref.whole main_v1) S1x1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x4096 : Shape := ⟨2, ![4, 4096]⟩
abbrev S1x1024 : Shape := ⟨2, ![1, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1x1024, .f32⟩
  | .hbm, ⟨3, _⟩ => ⟨S_, .i32⟩
  | .hbm, ⟨4, _⟩ => ⟨S4x4096, .i32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096x1024, .f32⟩
  | .hbm, ⟨24, _⟩ => ⟨S4x4096x1024, .i1⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1, .i32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  bcast_S4x4096x1_S4x4096x1024_0_1_2 : S4x4096x1.BroadcastsInDim S4x4096x1024 (![0, 1, 2] : Fin 3 → Fin S4x4096x1024.rank)
  gather_S1x1024_S4x4096x1_S4x4096x1024_2_0_n_n_0_2_11024_wf : GatherDims.WF S1x1024 S4x4096x1 S4x4096x1024 [2] [0] [] [0] [] 2 ![1, 1024]

variable [Facts₀]

def gather_S1x1024_S4x4096x1_S4x4096x1024_2_0_n_n_0_2_11024 : GatherDims S1x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S1x1024_S4x4096x1_S4x4096x1024_2_0_n_n_0_2_11024_wf

class Facts : Prop extends Facts₀ where

variable [Facts]
-- ==== Proof.KernelBody.lean ====
/-
  The kernel body's stored value, entry by entry.

  The body converts its block of 2048 integers to floats, multiplies that row vector, transposed, with the table's
  one row (a product contracting an axis of length one, into a zero accumulator), and adds the block of the
  input.  The sum over the length-one axis has one term, so entry (r, d) of what is stored is
  x(r, d) + n(r) · w(d), with n(r) the block's r-th integer as a real.
-/
import proofs.«164918_g11751030522053_week1_w4_1432_6_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The product's dimension numbers: both operands contract their leading axis, of length one. -/
abbrev dims : DotDims S1x2048 S1x1024 S2048x1024 := dot_S1x2048_S1x1024_S2048x1024_0_0_1_1_n_n

/-- At result entry (r, d) the left operand is read at (0, r), whatever the contraction position. -/
theorem lhsIdx_eq (r : Fin 2048) (d : Fin 1024) (k : dims.contr.Idx) :
    dims.lhsIdx (ix2 r d) k = ix2 (0 : Fin 1) r := by
  funext a
  refine Fin.ext ?_
  match a with
  | ⟨0, _⟩ => exact Nat.lt_one_iff.mp (dims.lhsIdx (ix2 r d) k 0).isLt
  | ⟨1, _⟩ => rfl

/-- At result entry (r, d) the right operand is read at (0, d). -/
theorem rhsIdx_eq (r : Fin 2048) (d : Fin 1024) (k : dims.contr.Idx) :
    dims.rhsIdx (ix2 r d) k = ix2 (0 : Fin 1) d := by
  funext a
  refine Fin.ext ?_
  match a with
  | ⟨0, _⟩ => exact Nat.lt_one_iff.mp (dims.rhsIdx (ix2 r d) k 0).isLt
  | ⟨1, _⟩ => rfl

/-- A block of integers with two leading unit axes dropped to one: entry (0, r) is entry (0, 0, r). -/
theorem dropUnit_apply (x0 : IVec S1x1x2048 32) (r : Fin 2048) :
    shapeCast S1x2048 x0 shapeCasts_S1x1x2048_S1x2048 (ix2 (0 : Fin 1) r) = x0 (ix3 (0 : Fin 1) (0 : Fin 1) r) := by
  refine shapeCast_apply x0 _ (ix2 (0 : Fin 1) r) (ix3 (0 : Fin 1) (0 : Fin 1) r) ?_
  rw [Shape.rowMajor_val_three, Shape.rowMajor_val_two]
  rfl

/-- The product into a zero accumulator at entry (r, d): its one term, the r-th integer as a real times the row's
    entry d. -/
theorem product_apply (x0 : IVec S1x1x2048 32) (x1 : FVec Ideal S1x1024 .f32) (r : Fin 2048) (d : Fin 1024) :
    FloatOps.matmul dims none (sitofp (F := Ideal) .f32 (shapeCast S1x2048 x0 shapeCasts_S1x1x2048_S1x2048)) x1
        (constant S2048x1024 .f32 0x00000000#32) (ix2 r d)
      = (((x0 (ix3 (0 : Fin 1) (0 : Fin 1) r)).toInt : ℝ) : EReal) * x1 (ix2 (0 : Fin 1) d) := by
  rw [Ideal.matmul_constant_zero_apply]
  rw [← Equiv.sum_comp (contrEquiv1 dims 1 rfl rfl).symm, Fin.sum_univ_one]
  rw [lhsIdx_eq, rhsIdx_eq, sitofp_apply, dropUnit_apply]
  rfl

/-- What the body stores, at entry (r, d) of its block. -/
theorem pay_apply (x0 : IVec S1x1x2048 32) (x1 : FVec Ideal S1x1024 .f32) (x2 : FVec Ideal S2048x1024 .f32)
    (r : Fin 2048) (d : Fin 1024) :
    k0_pay1 (F := Ideal) x0 x1 x2 (ix2 r d)
      = x2 (ix2 r d) + (((x0 (ix3 (0 : Fin 1) (0 : Fin 1) r)).toInt : ℝ) : EReal) * x1 (ix2 (0 : Fin 1) d) := by
  show shapeCast S2048x1024 x2 shapeCasts_S2048x1024_S2048x1024 (ix2 r d)
      + FloatOps.matmul dims none (sitofp (F := Ideal) .f32 (shapeCast S1x2048 x0 shapeCasts_S1x1x2048_S1x2048)) x1
          (constant S2048x1024 .f32 0x00000000#32) (ix2 r d) = _
  rw [product_apply, shapeCast_self]

end Cert.KernelIdeal.Body

end
-- ==== Proof.Spec.lean ====
/-
  The function both programs compute, entry by entry.

  The input is an array of 4 × 4096 positions, each a vector of 1024 numbers; every position carries an integer;
  the table has one row of 1024 numbers.  Entry (b, s, d) of the result is the input's entry plus entry d of
  the table's row times the integer of position (b, s) read as a real number.  The kernel works on the positions
  flattened to 16384 rows, so the same function is also stated by row: row r is position (r / 4096, r % 4096).
-/
import Idealize.ShloMosaic.PureOps.Ideal
import Idealize.ShloMosaic.Lib.ValueIdx

noncomputable section

namespace ScaledRow

open Idealize.ShloMosaic Idealize.ShloMosaic.ValueIdx

/-- Entry (b, s, d): the input's entry plus the row's entry d times position (b, s)'s integer as a real. -/
def entry (x : (⟨3, ![4, 4096, 1024]⟩ : Shape).Idx → EReal) (n : (⟨2, ![4, 4096]⟩ : Shape).Idx → BitVec 32)
    (w : (⟨2, ![1, 1024]⟩ : Shape).Idx → EReal) (b : Fin 4) (s : Fin 4096) (d : Fin 1024) : EReal :=
  x (ix3 b s d) + w (ix2 (0 : Fin 1) d) * (((n (ix2 b s)).toInt : ℝ) : EReal)

/-- The same entry with the two factors in the other order. -/
theorem entry_eq (x : (⟨3, ![4, 4096, 1024]⟩ : Shape).Idx → EReal) (n : (⟨2, ![4, 4096]⟩ : Shape).Idx → BitVec 32)
    (w : (⟨2, ![1, 1024]⟩ : Shape).Idx → EReal) (b : Fin 4) (s : Fin 4096) (d : Fin 1024) :
    entry x n w b s d = x (ix3 b s d) + (((n (ix2 b s)).toInt : ℝ) : EReal) * w (ix2 (0 : Fin 1) d) := by
  unfold entry
  rw [mul_comm]

/-- The result as an array over positions. -/
def byPosition (x : (⟨3, ![4, 4096, 1024]⟩ : Shape).Idx → EReal) (n : (⟨2, ![4, 4096]⟩ : Shape).Idx → BitVec 32)
    (w : (⟨2, ![1, 1024]⟩ : Shape).Idx → EReal) : (⟨3, ![4, 4096, 1024]⟩ : Shape).Idx → EReal :=
  fun i => entry x n w (i 0) (i 1) (i 2)

/-- The result as an array over flattened rows: row r is position (r / 4096, r % 4096). -/
def byRow (x : (⟨3, ![4, 4096, 1024]⟩ : Shape).Idx → EReal) (n : (⟨2, ![4, 4096]⟩ : Shape).Idx → BitVec 32)
    (w : (⟨2, ![1, 1024]⟩ : Shape).Idx → EReal) : (⟨2, ![16384, 1024]⟩ : Shape).Idx → EReal :=
  fun i => entry x n w ⟨(i 0).val / 4096, by have h : (i 0).val < 16384 := (i 0).isLt; omega⟩ ⟨(i 0).val % 4096, Nat.mod_lt _ (by decide)⟩ (i 1)

theorem byPosition_apply (x : (⟨3, ![4, 4096, 1024]⟩ : Shape).Idx → EReal) (n : (⟨2, ![4, 4096]⟩ : Shape).Idx → BitVec 32)
    (w : (⟨2, ![1, 1024]⟩ : Shape).Idx → EReal) (b : Fin 4) (s : Fin 4096) (d : Fin 1024) :
    byPosition x n w (ix3 b s d) = entry x n w b s d := rfl

/-- Row b · 4096 + s is position (b, s). -/
theorem byRow_apply (x : (⟨3, ![4, 4096, 1024]⟩ : Shape).Idx → EReal) (n : (⟨2, ![4, 4096]⟩ : Shape).Idx → BitVec 32)
    (w : (⟨2, ![1, 1024]⟩ : Shape).Idx → EReal) (b : Fin 4) (s : Fin 4096) (d : Fin 1024) (r : Fin 16384)
    (hr : r.val = b.val * 4096 + s.val) :
    byRow x n w (ix2 r d) = entry x n w b s d := by
  have hb : (⟨r.val / 4096, by have := r.isLt; omega⟩ : Fin 4) = b := Fin.ext (by have := s.isLt; show r.val / 4096 = b.val; omega)
  have hs : (⟨r.val % 4096, Nat.mod_lt _ (by decide)⟩ : Fin 4096) = s := Fin.ext (by have := s.isLt; show r.val % 4096 = s.val; omega)
  show entry x n w ⟨r.val / 4096, _⟩ ⟨r.val % 4096, _⟩ d = _
  rw [hb, hs]

end ScaledRow

end
-- ==== Proof.KernelValue.lean ====
/-
  The kernel program's result array as one function of the three arguments.

  The program flattens the input to 16384 rows and the integers to eight blocks of 2048, runs the body on eight
  consecutive blocks of 2048 rows, and reshapes the rows back to positions.  Block t of the flattened input holds
  rows 2048·t … 2048·t + 2047, and so does block t of the integers; the table's one row is read whole at every
  point.  So what point t writes back is block t of the specification read by row; the eight blocks tile the
  16384 rows; and the final reshape turns the function read by row into the function read by position.
-/
import proofs.«164918_g11751030522053_week1_w4_1432_6_alg».proof.Proof.Gen.KernelIdeal.Frame
import proofs.«164918_g11751030522053_week1_w4_1432_6_alg».proof.Proof.KernelBody
import proofs.«164918_g11751030522053_week1_w4_1432_6_alg».proof.Proof.Spec
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the region finds -/

/-- The flattened input: the input reshaped to 16384 rows. -/
theorem V_rows (c : Dev nD) :
    (V m c main_v0 : S16384x1024.Idx → EReal)
      = shapeCast S16384x1024 (m ((c : Thread nD τ).loc main_arg0)) shapeCasts_S4x4096x1024_S16384x1024 := by
  show StableHlo.after hostOps0 (fun b => m (c, b)) (Proc.devRef .tc main_v0) = _
  after_results
  rfl

/-- The integers in eight blocks of 2048. -/
theorem V_ints (c : Dev nD) :
    (V m c main_v1 : S8x1x2048.Idx → BitVec 32)
      = shapeCast S8x1x2048 (m ((c : Thread nD τ).loc main_arg1)) shapeCasts_S4x4096_S8x1x2048 := by
  show StableHlo.after hostOps0 (fun b => m (c, b)) (Proc.devRef .tc main_v1) = _
  after_results
  rfl

/-! ## The blocks -/

/-- The blocks' index maps, decided over the eight points: point t takes block t of the integers, of the
    flattened input and of the result, and the table's only block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (r, d) of the input's block at point t is the input at the position of row 2048·t + r. -/
theorem xblk_apply (c : Dev nD) (t : Fin cfg0.N) (r : Fin 2048) (d : Fin 1024) (b : Fin 4) (s : Fin 4096)
    (h : t.val * 2048 + r.val = b.val * 4096 + s.val) :
    (iblk m c 2 t : Vec Ideal S2048x1024 .f32) (ix2 r d)
      = (m ((c : Thread nD τ).loc main_arg0) : S4x4096x1024.Idx → EReal) (ix3 b s d) := by
  obtain ⟨-, -, -, -, -, e0, e1, -, -⟩ := idx_facts t
  unfold iblk
  rw [View.read_apply]
  show V m c main_v0 _ = _
  rw [V_rows]
  refine shapeCast_apply _ _ _ (ix3 b s d) ?_
  rw [Shape.rowMajor_val_three, Shape.rowMajor_val_two]
  show (b.val * 4096 + s.val) * 1024 + d.val
    = (win0_2.index t (0 : Fin 2) * 2048 + 1 * r.val) * 1024 + (win0_2.index t (1 : Fin 2) * 1024 + 1 * d.val)
  rw [e0, e1]
  omega

/-- Entry r of the integers' block at point t is the integer of the position of row 2048·t + r. -/
theorem nblk_apply (c : Dev nD) (t : Fin cfg0.N) (r : Fin 2048) (b : Fin 4) (s : Fin 4096)
    (h : t.val * 2048 + r.val = b.val * 4096 + s.val) :
    (iblk m c 0 t : Vec Ideal S1x1x2048 .i32) (ix3 (0 : Fin 1) (0 : Fin 1) r)
      = (m ((c : Thread nD τ).loc main_arg1) : S4x4096.Idx → BitVec 32) (ix2 b s) := by
  obtain ⟨e0, e1, e2, -, -, -, -, -, -⟩ := idx_facts t
  unfold iblk
  rw [View.read_apply]
  show V m c main_v1 _ = _
  rw [V_ints]
  refine shapeCast_apply _ _ _ (ix2 b s) ?_
  rw [Shape.rowMajor_val_three, Shape.rowMajor_val_two]
  show b.val * 4096 + s.val
    = ((win0_0.index t (0 : Fin 3) * 1 + 1 * 0) * 1 + (win0_0.index t (1 : Fin 3) * 1 + 1 * 0)) * 2048
      + (win0_0.index t (2 : Fin 3) * 2048 + 1 * r.val)
  rw [e0, e1, e2]
  omega

/-- The table's block at every point is the table's one row. -/
theorem wblk_apply (c : Dev nD) (t : Fin cfg0.N) (d : Fin 1024) :
    (iblk m c 1 t : Vec Ideal S1x1024 .f32) (ix2 (0 : Fin 1) d)
      = (m ((c : Thread nD τ).loc main_arg2) : S1x1024.Idx → EReal) (ix2 (0 : Fin 1) d) := by
  obtain ⟨-, -, -, e0, e1, -, -, -, -⟩ := idx_facts t
  unfold iblk
  rw [View.read_apply, ← V_main_arg2 m c]
  show V m c main_arg2 _ = V m c main_arg2 _
  refine congrArg (V m c main_arg2) (funext fun a => Fin.ext ?_)
  match a with
  | ⟨0, _⟩ => show win0_1.index t (0 : Fin 2) * 1 + 1 * 0 = 0; rw [e0]
  | ⟨1, _⟩ => show win0_1.index t (1 : Fin 2) * 1024 + 1 * d.val = d.val; rw [e1]; omega

/-! ## What a point writes back -/

/-- The specification read by row, of the three arguments as launched. -/
abbrev rows (c : Dev nD) : S16384x1024.Idx → EReal :=
  ScaledRow.byRow (m ((c : Thread nD τ).loc main_arg0)) (m ((c : Thread nD τ).loc main_arg1))
    (m ((c : Thread nD τ).loc main_arg2))

/-- Point t writes back block t of the specification read by row. -/
theorem flushed_eq (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3]
  unfold out0_3
  rw [View.canon_unit_zero hz2]
  simp only [View.ld_unit_zero (S := S1x1x2048) hz3, View.ld_unit_zero (S := S1x1024) hz2,
    View.ld_unit_zero (S := S2048x1024) hz2]
  obtain ⟨-, -, -, -, -, -, -, e0, e1⟩ := idx_facts t
  have hN : cfg0.N = 8 := N_0
  have ht : t.val < 8 := hN ▸ t.isLt
  funext j
  obtain ⟨r, d, rfl⟩ : ∃ (r : Fin 2048) (d : Fin 1024), j = ix2 r d := ⟨j 0, j 1, eq_ix2 j⟩
  have hr : r.val < 2048 := r.isLt
  have hemb : ((cfg0.win 3).blk t).view.emb (ix2 r d) = ix2 (⟨t.val * 2048 + r.val, by omega⟩ : Fin 16384) d := by
    funext a
    refine Fin.ext ?_
    match a with
    | ⟨0, _⟩ => show win0_3.index t (0 : Fin 2) * 2048 + 1 * r.val = t.val * 2048 + r.val; rw [e0]; omega
    | ⟨1, _⟩ => show win0_3.index t (1 : Fin 2) * 1024 + 1 * d.val = d.val; rw [e1]; omega
  show k0_pay1 (iblk m c 0 t) (iblk m c 1 t) (iblk m c 2 t) (ix2 r d) = rows m c (((cfg0.win 3).blk t).view.emb (ix2 r d))
  rw [hemb]
  have hpos : t.val * 2048 + r.val
      = (⟨(t.val * 2048 + r.val) / 4096, by omega⟩ : Fin 4).val * 4096
        + (⟨(t.val * 2048 + r.val) % 4096, Nat.mod_lt _ (by decide)⟩ : Fin 4096).val := by
    show t.val * 2048 + r.val = (t.val * 2048 + r.val) / 4096 * 4096 + (t.val * 2048 + r.val) % 4096
    omega
  refine Eq.trans ?_ (ScaledRow.byRow_apply _ _ _ _ _ d _ hpos).symm
  rw [Body.pay_apply, xblk_apply m c t r d _ _ hpos, nblk_apply m c t r _ _ hpos, wblk_apply m c t d]
  rw [ScaledRow.entry_eq]

/-! ## The array after the run -/

/-- An index of the flattened result is in point t's block iff each coordinate is in the block's range. -/
theorem mem_blk (t : Fin cfg0.N) (i : S16384x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v2).slice (win0_3.rect t)).set ↔ _
  rw [View.set_slice_whole, Rect.mem_set_unit]
  exact Iff.rfl

/-- Row r lies in the block of point r / 2048: the eight blocks tile the rows. -/
theorem cover (i : S16384x1024.Idx) :
    ∃ t : Fin cfg0.N, (cfg0.win 3).flush t = true ∧ i ∈ ((cfg0.win 3).blk t).view.set := by
  have hN : cfg0.N = 8 := N_0
  have hi0 : (i 0).val < 16384 := (i 0).isLt
  have hi1 : (i 1).val < 1024 := (i 1).isLt
  refine ⟨⟨(i 0).val / 2048, by rw [hN]; omega⟩, flush0_3 _, ?_⟩
  rw [mem_blk]
  obtain ⟨-, -, -, -, -, -, -, e0, e1⟩ := idx_facts ⟨(i 0).val / 2048, by rw [hN]; omega⟩
  intro a
  match a with
  | ⟨0, _⟩ =>
    show win0_3.index _ (0 : Fin 2) * 2048 ≤ (i 0).val ∧ (i 0).val < win0_3.index _ (0 : Fin 2) * 2048 + 2048
    rw [e0]
    show (i 0).val / 2048 * 2048 ≤ (i 0).val ∧ (i 0).val < (i 0).val / 2048 * 2048 + 2048
    omega
  | ⟨1, _⟩ =>
    show win0_3.index _ (1 : Fin 2) * 1024 ≤ (i 1).val ∧ (i 1).val < win0_3.index _ (1 : Fin 2) * 1024 + 1024
    rw [e1]
    omega

/-- After the region the flattened result array is the specification read by row. -/
theorem final (c : Dev nD) : (dats m 0 c).arrAt 3 cfg0.N = rows m c :=
  (dats m 0 c).arrAt_eq_of_cover 3 (rows m c) (fun t _ => flushed_eq m c t) cover

/-! ## The reshape after the region, and the run -/

/-- The rows reshaped back to positions: the specification read by position. -/
theorem reshaped (c : Dev nD) :
    shapeCast S4x4096x1024 (rows m c) shapeCasts_S16384x1024_S4x4096x1024
      = ScaledRow.byPosition (m ((c : Thread nD τ).loc main_arg0)) (m ((c : Thread nD τ).loc main_arg1))
          (m ((c : Thread nD τ).loc main_arg2)) := by
  funext i
  obtain ⟨b, s, d, rfl⟩ : ∃ (b : Fin 4) (s : Fin 4096) (d : Fin 1024), i = ix3 b s d := ⟨i 0, i 1, i 2, eq_ix3 i⟩
  have hb : b.val < 4 := b.isLt
  have hs : s.val < 4096 := s.isLt
  refine (shapeCast_apply _ _ (ix3 b s d) (ix2 (⟨b.val * 4096 + s.val, by omega⟩ : Fin 16384) d) ?_).trans ?_
  · rw [Shape.rowMajor_val_three, Shape.rowMajor_val_two]
    rfl
  · rw [ScaledRow.byPosition_apply]
    exact ScaledRow.byRow_apply _ _ _ b s d _ rfl

/-- The program's result buffer after the lines that follow the region. -/
theorem tail_eq (c : Dev nD) :
    Pipeline.afterTail₀ cfgs (dats m) 0 (V0 m) [hostOps1] c main_v3
      = ScaledRow.byPosition (m ((c : Thread nD τ).loc main_arg0)) (m ((c : Thread nD τ).loc main_arg1))
          (m ((c : Thread nD τ).loc main_arg2)) := by
  have hw : (Pipeline.withArrays spec0 c (V0 m c) (fun w => (dats m 0 c).arrAt w cfg0.N) (Proc.devRef .tc main_v2)
      : S16384x1024.Idx → EReal) = rows m c :=
    (Pipeline.withArrays_arr spec0 launch0.win.arr_inj c _ _ 3).trans (final m c)
  unfold Pipeline.afterTail₀
  show StableHlo.after hostOps1 _ (Proc.devRef .tc main_v3) = _
  after_results
  rw [← reshaped m c, ← hw]
  rfl

/-- The run, read: every weakly fair execution of the kernel program terminates with its result buffer at the
    specification read by position, and the three arguments unchanged. -/
theorem run : θ_run defs (onTc (τ := τ) (main (F := Ideal))) ⟨m, fun _ => 0, ρ⟩ fun r => ∀ c : Dev nD,
      r.2.mem ((c.tc : Thread nD τ).loc main_v3)
        = ScaledRow.byPosition (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 1).trans (((dats m 0 c).arrAt_in 1 rfl _).trans ((A_eq m c 1).trans (V_main_arg2 m c)))⟩)
    (run_main m ρ)

end Cert.KernelIdeal.KValue

end
-- ==== Proof.RefRun.lean ====
/-
  The reference program as a straight line of host operations, and what it computes.

  The reference looks a one-row table up at row number zero for every position, scales the row found by the
  position's integer, converted to a float, and adds the result to the input.  The lookup is a function of its
  own that calls a second one: the row numbers are first counted from the end of the table when negative, then
  compared with the table's bounds, and a position whose row number is out of bounds reads a not-a-number filler
  in place of the row.  Here the two calls are listed inline, operation by operation, and the program's result
  buffer is read back as one composed term of the three argument arrays (`refOut`).
-/
import proofs.«164918_g11751030522053_week1_w4_1432_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- The row numbers the lookup uses: zero at every position, one table length added where negative. -/
def rowNumbers : IVec S4x4096x1 32 :=
  broadcastInDim S4x4096x1 ![0, 1] bcast_S4x4096_S4x4096x1_0_1
    (select
      (cmpi .slt (broadcastInDim S4x4096 ![] bcast_S_S4x4096 (constantI S_ 32 0#32))
        (broadcastInDim S4x4096 ![] bcast_S_S4x4096 (constantI S_ 32 0#32)))
      (addi (broadcastInDim S4x4096 ![] bcast_S_S4x4096 (constantI S_ 32 0#32))
        (broadcastInDim S4x4096 ![] bcast_S_S4x4096 (constantI S_ 32 1#32)))
      (broadcastInDim S4x4096 ![] bcast_S_S4x4096 (constantI S_ 32 0#32)))

/-- Per position: is its row number within the table's bounds, 0 ≤ r ≤ 0? -/
def inBounds (r : IVec S4x4096x1 32) : IVec S4x4096 1 :=
  Host.reduce IntOp.andi
    (andi (cmpi .sge r (broadcastInDim S4x4096x1 ![] bcast_S_S4x4096x1 (constantI S_ 32 0#32)))
      (cmpi .sle r (broadcastInDim S4x4096x1 ![0, 1, 2] bcast_S1x1x1_S4x4096x1_0_1_2
        (broadcastInDim S1x1x1 ![2] bcast_S1_S1x1x1_2 (constantI S1 32 0#32)))))
    (constantI S_ 1 1#1) reducesTo_S4x4096x1_S4x4096_d2 h_S_

/-- The table's row found for every position: the looked-up row where the row number is in bounds, the filler
    elsewhere. -/
def rowFound (w : FVec F S1x1024 .f32) : FVec F S4x4096x1024 .f32 :=
  select (broadcastInDim S4x4096x1024 ![0, 1] bcast_S4x4096_S4x4096x1024_0_1 (inBounds rowNumbers))
    (Host.gather gather_S1x1024_S4x4096x1_S4x4096x1024_2_0_n_n_0_2_11024 w rowNumbers)
    (broadcastInDim S4x4096x1024 ![] bcast_S_S4x4096x1024 (constant S_ .f32 0x7FC00000#32))

/-- The reference's result: the input plus the row found scaled by each position's integer as a float. -/
def refOut (x : FVec F S4x4096x1024 .f32) (n : IVec S4x4096 32) (w : FVec F S1x1024 .f32) : FVec F S4x4096x1024 .f32 :=
  addf x (mulf (rowFound w)
    (broadcastInDim S4x4096x1024 ![0, 1, 2] bcast_S4x4096x1_S4x4096x1024_0_1_2
      (sitofp .f32 (broadcastInDim S4x4096x1 ![0, 1] bcast_S4x4096_S4x4096x1_0_1 n))))

/-! ## The program as a list of operations -/

/-- @main's thirty operations in order, the two calls unfolded: the zero row numbers (two), the lookup function's
    twenty-three with the where-function's select among them, then the integer's broadcast, conversion and
    broadcast, the product and the sum. -/
abbrev ops : List (HloOp τ sig (Elt F)) :=
  [ nullary main_c (constantI S_ 32 0#32),
    unary main_c main_v0 (broadcastInDim S4x4096 ![] bcast_S_S4x4096 : (⟨S_, .i32⟩ : BufTy).Contents (Elt F) → (⟨S4x4096, .i32⟩ : BufTy).Contents (Elt F)),
    TRef.nullary main_call0.c (constantI S_ 32 0#32),
    TRef.unary main_call0.c main_call0.v0 (broadcastInDim S4x4096 ![] bcast_S_S4x4096),
    TRef.binary (.of main_v0) main_call0.v0 main_call0.v1 (cmpi .slt),
    TRef.nullary main_call0.c_0 (constantI S_ 32 1#32),
    TRef.unary main_call0.c_0 main_call0.v2 (broadcastInDim S4x4096 ![] bcast_S_S4x4096),
    TRef.binary (.of main_v0) main_call0.v2 main_call0.v3 addi,
    TRef.ternary main_call0.v1 main_call0.v3 (.of main_v0) main_call0.call0.v0 select,
    TRef.unary main_call0.call0.v0 main_call0.v5 (broadcastInDim S4x4096x1 ![0, 1] bcast_S4x4096_S4x4096x1_0_1),
    TRef.nullary main_call0.c_1 (constantI S1 32 0#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_arg2) main_call0.v5 main_call0.v13 (fun x i => Host.gather gather_S1x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select,
    unary main_arg1 main_v2 (broadcastInDim S4x4096x1 ![0, 1] bcast_S4x4096_S4x4096x1_0_1 : (⟨S4x4096, .i32⟩ : BufTy).Contents (Elt F) → (⟨S4x4096x1, .i32⟩ : BufTy).Contents (Elt F)),
    unary main_v2 main_v3 (sitofp .f32 : (⟨S4x4096x1, .i32⟩ : BufTy).Contents (Elt F) → (⟨S4x4096x1, .f32⟩ : BufTy).Contents (Elt F)),
    unary main_v3 main_v4 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v1 main_v4 main_v5 (mulf : (⟨S4x4096x1024, .f32⟩ : BufTy).Contents (Elt F) → (⟨S4x4096x1024, .f32⟩ : BufTy).Contents (Elt F) → (⟨S4x4096x1024, .f32⟩ : BufTy).Contents (Elt F)),
    binary main_arg0 main_v5 main_v6 (addf : (⟨S4x4096x1024, .f32⟩ : BufTy).Contents (Elt F) → (⟨S4x4096x1024, .f32⟩ : BufTy).Contents (Elt F) → (⟨S4x4096x1024, .f32⟩ : BufTy).Contents (Elt F)) ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

attribute [local irreducible] Host.reduce Host.gather in
set_option maxRecDepth 8192 in
set_option maxHeartbeats 400000 in
/-- The fold of the operations at the result buffer is the composed term of the three arguments: each operation's
    result is read at its own buffer and passed over at every other one, by computation; the reduction and the
    lookup stay folded meanwhile. -/
theorem out_eq (V : Valuation τ sig (Elt F)) :
    after ops V (main_v6 : DevRef τ sig)
      = refOut (V (main_arg0 : DevRef τ sig)) (V (main_arg1 : DevRef τ sig)) (V (main_arg2 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., unary_bufs_sub .., binary_bufs_sub .., binary_bufs_sub ..⟩

/-- On every device, for any float values, from any memory with zero counters: every weakly fair execution of the
    reference terminates with its result at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
        = refOut (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.LibAllOnes.lean ====
/-
  A reduction by "and" of an array of ones, started from one, is one at every result index.
-/
import Idealize.ShloMosaic.PureOps.Reduce

namespace LibAllOnes

open Idealize.ShloMosaic

/-- A left fold by "and" that starts at one and meets only ones ends at one. -/
theorem foldl_andi_ones {ι : Type} (f : ι → BitVec 1) (hf : ∀ i, f i = 1#1) :
    ∀ l : List ι, l.foldl (fun r i => IntOp.andi r (f i)) 1#1 = 1#1
  | [] => rfl
  | a :: l => by
    have e : IntOp.andi (1#1 : BitVec 1) 1#1 = 1#1 := by decide
    rw [List.foldl_cons, hf a, e]
    exact foldl_andi_ones f hf l

/-- A host reduction by "and" over any axes of an array whose every entry is one, from an initial value of one,
    is one at every index of the result. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

end LibAllOnes
-- ==== Proof.LibGatherScatter.lean ====
/-
  Row lookups and row accumulations read at one entry.

  A table of N rows is looked up at a list of E signed row numbers: entry e of the result is the table's row whose
  number is the e-th row number, read as a signed integer and clamped into [0, N − 1].  An accumulation adds E update
  rows into a table of N rows: update e is added to the row its signed row number names, and is dropped when that
  number names no row.  Over the extended reals the accumulated table reads, at row i, the table's own entry plus
  the sum of the updates whose row number is i.  Both are stated for tables of rows of W entries and for tables of
  single numbers, with the row numbers given as an E-by-1 array.
-/
import Idealize.ShloMosaic.PureOps.Ideal.Laws
import Idealize.ShloMosaic.Lib.ValueIdx

noncomputable section

open scoped BigOperators

namespace LibGatherScatter

open Idealize.ShloMosaic Idealize.ShloMosaic.ValueIdx

/-- A signed word clamped to a row number of a table of N rows. -/
def clampRow (N : Nat) (hN : 0 < N) {w : Nat} (v : BitVec w) : Fin N := ⟨min v.toInt.toNat (N - 1), by omega⟩

/-- A word that, read signed, is the row number i is clamped to i. -/
theorem clampRow_of_toInt {N : Nat} (hN : 0 < N) {w : Nat} (v : BitVec w) (i : Fin N) (h : v.toInt = (i.val : ℤ)) :
    clampRow N hN v = i := by
  refine Fin.ext ?_
  show min v.toInt.toNat (N - 1) = i.val
  rw [h, Int.toNat_natCast]
  have := i.isLt
  omega

/-- The one entry of the one-entry list of axes `[1]`, whatever number it is asked for under. -/
theorem getElem_single_one (n : Nat) (hn : n < ([1] : List (Fin 2)).length) : (([1] : List (Fin 2))[n]'hn) = 1 := by
  have h0 : n = 0 := by simpa using hn
  subst h0
  rfl

/-! ## Looking rows up -/

section Gather
variable {α : Type}

/-- The lookup of whole rows of an N-by-W table at an E-by-1 array of row numbers. -/
abbrev rowsDims (N E W : Nat) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Entry (e, k) of the looked-up rows is entry k of the table's row named by row number e, clamped. -/
theorem gather_rows_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowsDims N E W wf) x idx (ix2 e k) = x (ix2 (clampRow N hN (idx (ix2 e (0 : Fin 1)))) k) := by
  unfold Host.gather
  refine congrArg x (funext fun a => Fin.ext ?_)
  match a with
  | ⟨0, _⟩ =>
    show (rowsDims N E W wf).start (ix2 e k) idx 0 + (rowsDims N E W wf).batchCoord (ix2 e k) 0
      + (rowsDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E W wf).startIndexMap from List.mem_singleton.mpr rfl)]
    have hsi : (rowsDims N E W wf).siIdx (ix2 e k) ⟨List.idxOf (0 : Fin 2) (rowsDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E W wf).start (ix2 e k) idx 1 + (rowsDims N E W wf).batchCoord (ix2 e k) 1
      + (rowsDims N E W wf).offCoord (ix2 e k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N E W wf).startIndexMap from h10)]
    unfold GatherDims.offCoord
    rw [dif_pos (show (1 : Fin 2) ∈ (rowsDims N E W wf).sKept from
      (GatherDims.mem_sKept _ _).mpr ⟨h10, List.not_mem_nil⟩)]
    rw [Nat.zero_add]
    exact congrArg (fun z : Fin 2 => ((ix2 e k z).val : ℕ)) (getElem_single_one _ _)

/-- The lookup of single numbers of a table of N numbers at an E-by-1 array of row numbers. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the looked-up numbers is the table's number named by row number e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  refine congrArg x (funext fun a => Fin.ext ?_)
  obtain rfl : a = 0 := Subsingleton.elim _ _
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating rows -/

/-- An axis is among the axes outside a list exactly when it is not in the list. -/
theorem mem_kept {s : Shape} (axes : List (Fin s.rank)) (a : Fin s.rank) : a ∈ s.kept axes ↔ a ∉ axes := by
  simp [Shape.kept, List.mem_filter, List.mem_finRange]

/-- A rank-1 index set is its one coordinate range, so a sum over it is the sum over the coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section ScatterRows

/-- The accumulation of E update rows into an N-by-W table at an E-by-1 array of row numbers. -/
abbrev rowsScat (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)
  (idx : IVec ⟨2, ![E, 1]⟩ w) (e : Fin E) (k' : Fin W)

theorem one_not_mem_zero : ¬ (1 : Fin 2) ∈ ([0] : List (Fin 2)) := by decide

/-- Update (e, k') starts, along the rows, at its row number read signed … -/
theorem rowsScat_start0 : (rowsScat N E W wf).start (ix2 e k') idx 0 = (idx (ix2 e (0 : Fin 1))).toInt := by
  unfold ScatterDims.start
  rw [dif_pos (show (0 : Fin 2) ∈ (rowsScat N E W wf).scatterDimsToOperandDims from List.mem_singleton.mpr rfl)]
  have hsi : (rowsScat N E W wf).siIdx (ix2 e k') ⟨List.idxOf (0 : Fin 2) (rowsScat N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, along a row, at 0; -/
theorem rowsScat_start1 : (rowsScat N E W wf).start (ix2 e k') idx 1 = 0 := by
  unfold ScatterDims.start
  rw [dif_neg (show ¬ (1 : Fin 2) ∈ (rowsScat N E W wf).scatterDimsToOperandDims from one_not_mem_zero)]

/-- its place inside the row window is 0 along the rows … -/
theorem rowsScat_window0 : (rowsScat N E W wf).window (ix2 e k') 0 = 0 := by
  unfold ScatterDims.window
  rw [dif_neg (show ¬ (0 : Fin 2) ∈ (rowsScat N E W wf).sKept from
    fun h => ((mem_kept _ _).mp h) (List.mem_singleton.mpr rfl))]

/-- … and k' along the row. -/
theorem rowsScat_window1 : (rowsScat N E W wf).window (ix2 e k') 1 = k'.val := by
  unfold ScatterDims.window
  rw [dif_pos (show (1 : Fin 2) ∈ (rowsScat N E W wf).sKept from (mem_kept _ _).mpr one_not_mem_zero)]
  exact congrArg (fun z : Fin 2 => ((ix2 e k' z).val : ℕ)) (getElem_single_one _ _)

/-- Update (e, k') lands on entry (i, k) exactly when its row number, read signed, is i and k' is k. -/
theorem rowsScat_resultIdx_iff (i : Fin N) (k : Fin W) :
    (rowsScat N E W wf).resultIdx? (ix2 e k') idx = some (ix2 i k)
      ↔ (idx (ix2 e (0 : Fin 1))).toInt = (i.val : ℤ) ∧ k' = k := by
  have s0 := rowsScat_start0 wf idx e k'
  have s1 := rowsScat_start1 wf idx e k'
  have w0 := rowsScat_window0 wf e k'
  have w1 := rowsScat_window1 wf e k'
  have hi := i.isLt
  have hk := k.isLt
  have hk' := k'.isLt
  unfold ScatterDims.resultIdx?
  split
  · rename_i h
    rw [Option.some.injEq]
    constructor
    · intro hf
      have h0 : ((rowsScat N E W wf).start (ix2 e k') idx 0 + ((rowsScat N E W wf).window (ix2 e k') 0 : ℕ)).toNat = i.val :=
        congrArg (fun f : (⟨2, ![N, W]⟩ : Shape).Idx => (f 0).val) hf
      have h1 : ((rowsScat N E W wf).start (ix2 e k') idx 1 + ((rowsScat N E W wf).window (ix2 e k') 1 : ℕ)).toNat = k.val :=
        congrArg (fun f : (⟨2, ![N, W]⟩ : Shape).Idx => (f 1).val) hf
      have hh := (h 0).1
      rw [s0, w0] at h0 hh
      rw [s1, w1] at h1
      exact ⟨by omega, Fin.ext (by omega)⟩
    · rintro ⟨hI, rfl⟩
      funext a; refine Fin.ext ?_
      match a with
      | ⟨0, _⟩ =>
        show ((rowsScat N E W wf).start (ix2 e k') idx 0 + ((rowsScat N E W wf).window (ix2 e k') 0 : ℕ)).toNat = i.val
        rw [s0, w0, hI]; omega
      | ⟨1, _⟩ =>
        show ((rowsScat N E W wf).start (ix2 e k') idx 1 + ((rowsScat N E W wf).window (ix2 e k') 1 : ℕ)).toNat = k'.val
        rw [s1, w1]; omega
  · rename_i h
    constructor
    · intro hf; exact absurd hf (by simp)
    · rintro ⟨hI, rfl⟩
      exfalso; apply h; intro a
      match a with
      | ⟨0, _⟩ =>
        show 0 ≤ (rowsScat N E W wf).start (ix2 e k') idx 0 + ((rowsScat N E W wf).window (ix2 e k') 0 : ℕ)
          ∧ (rowsScat N E W wf).start (ix2 e k') idx 0 + ((rowsScat N E W wf).window (ix2 e k') 0 : ℕ) < (N : ℤ)
        rw [s0, w0, hI]; omega
      | ⟨1, _⟩ =>
        show 0 ≤ (rowsScat N E W wf).start (ix2 e k') idx 1 + ((rowsScat N E W wf).window (ix2 e k') 1 : ℕ)
          ∧ (rowsScat N E W wf).start (ix2 e k') idx 1 + ((rowsScat N E W wf).window (ix2 e k') 1 : ℕ) < (W : ℤ)
        rw [s1, w1]; omega

/-- Entry (i, k) of the accumulated table, over the extended reals: the table's own entry plus the sum of the
    entries k of the update rows whose row number is i. -/
theorem scatterAdd_rows_apply {φ : FTy} (x : FVec Ideal ⟨2, ![N, W]⟩ φ) (upd : FVec Ideal ⟨2, ![E, W]⟩ φ) (i : Fin N) (k : Fin W) :
    Host.scatterAdd (F := Ideal) (rowsScat N E W wf) x idx upd (ix2 i k)
      = x (ix2 i k) + ∑ e : Fin E, if (idx (ix2 e (0 : Fin 1))).toInt = (i.val : ℤ) then upd (ix2 e k) else 0 := by
  unfold Host.scatterAdd
  rw [Ideal.hostScatterAdd_def]
  unfold Ideal.hostScatterAdd
  refine congrArg (x (ix2 i k) + ·) ?_
  rw [Finset.sum_filter, sum_idx2]
  refine Finset.sum_congr rfl fun e _ => ?_
  simp only [rowsScat_resultIdx_iff wf idx e _ i k]
  by_cases hP : (idx (ix2 e (0 : Fin 1))).toInt = (i.val : ℤ)
  · simp only [hP, true_and]
    rw [Finset.sum_ite_eq' Finset.univ k (fun k' => upd (ix2 e k')), if_pos (Finset.mem_univ k), if_pos trivial]
  · simp only [hP, false_and, if_false, Finset.sum_const_zero]

end ScatterRows

section ScatterVec

/-- The accumulation of E update numbers into a table of N numbers at an E-by-1 array of row numbers. -/
abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

theorem vecScat_start0 : (vecScat N E wf).start (ix1 e) idx 0 = (idx (ix2 e (0 : Fin 1))).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScat_window0 : (vecScat N E wf).window (ix1 e) 0 = 0 := by
  unfold ScatterDims.window
  rw [dif_neg (show ¬ (0 : Fin 1) ∈ (vecScat N E wf).sKept from
    fun h => ((mem_kept _ _).mp h) (List.mem_singleton.mpr rfl))]

/-- Update e lands on entry i exactly when its row number, read signed, is i. -/
theorem vecScat_resultIdx_iff (i : Fin N) :
    (vecScat N E wf).resultIdx? (ix1 e) idx = some (ix1 i) ↔ (idx (ix2 e (0 : Fin 1))).toInt = (i.val : ℤ) := by
  have s0 := vecScat_start0 wf idx e
  have w0 := vecScat_window0 wf e
  have hi := i.isLt
  unfold ScatterDims.resultIdx?
  split
  · rename_i h
    rw [Option.some.injEq]
    constructor
    · intro hf
      have h0 : ((vecScat N E wf).start (ix1 e) idx 0 + ((vecScat N E wf).window (ix1 e) 0 : ℕ)).toNat = i.val :=
        congrArg (fun f : (⟨1, ![N]⟩ : Shape).Idx => (f 0).val) hf
      have hh := (h 0).1
      rw [s0, w0] at h0 hh
      omega
    · intro hI
      funext a; refine Fin.ext ?_
      obtain rfl : a = 0 := Subsingleton.elim _ _
      show ((vecScat N E wf).start (ix1 e) idx 0 + ((vecScat N E wf).window (ix1 e) 0 : ℕ)).toNat = i.val
      rw [s0, w0, hI]; omega
  · rename_i h
    constructor
    · intro hf; exact absurd hf (by simp)
    · intro hI
      exfalso; apply h; intro a
      obtain rfl : a = 0 := Subsingleton.elim _ _
      show 0 ≤ (vecScat N E wf).start (ix1 e) idx 0 + ((vecScat N E wf).window (ix1 e) 0 : ℕ)
        ∧ (vecScat N E wf).start (ix1 e) idx 0 + ((vecScat N E wf).window (ix1 e) 0 : ℕ) < (N : ℤ)
      rw [s0, w0, hI]; omega

/-- Entry i of the accumulated table, over the extended reals: the table's own entry plus the sum of the updates
    whose row number is i. -/
theorem scatterAdd_vec_apply {φ : FTy} (x : FVec Ideal ⟨1, ![N]⟩ φ) (upd : FVec Ideal ⟨1, ![E]⟩ φ) (i : Fin N) :
    Host.scatterAdd (F := Ideal) (vecScat N E wf) x idx upd (ix1 i)
      = x (ix1 i) + ∑ e : Fin E, if (idx (ix2 e (0 : Fin 1))).toInt = (i.val : ℤ) then upd (ix1 e) else 0 := by
  unfold Host.scatterAdd
  rw [Ideal.hostScatterAdd_def]
  unfold Ideal.hostScatterAdd
  refine congrArg (x (ix1 i) + ·) ?_
  rw [Finset.sum_filter, sum_idx1]
  refine Finset.sum_congr rfl fun e _ => ?_
  simp only [vecScat_resultIdx_iff wf idx e i]

end ScatterVec

end LibGatherScatter

end
-- ==== Proof.LibGather3.lean ====
/-
  A lookup of whole rows at a two-dimensional array of row numbers, read at one entry.

  A table of N rows of W entries is looked up at an E-by-J array of signed row numbers (given as an E-by-J-by-1
  array): entry (e, j, k) of the result is entry k of the table's row whose number is row number (e, j), read as a
  signed integer and clamped into [0, N − 1].
-/
import Idealize.ShloMosaic.PureOps.Ideal.Laws
import Idealize.ShloMosaic.Lib.ValueIdx
import proofs.«164918_g11751030522053_week1_w4_1432_6_alg».proof.Proof.LibGatherScatter

noncomputable section

namespace LibGather3

open Idealize.ShloMosaic Idealize.ShloMosaic.ValueIdx LibGatherScatter

/-- The one entry of the one-entry list of axes `[2]`, whatever number it is asked for under. -/
theorem getElem_single_two (n : Nat) (hn : n < ([2] : List (Fin 3)).length) : (([2] : List (Fin 3))[n]'hn) = 2 := by
  have h0 : n = 0 := by simpa using hn
  subst h0
  rfl

variable {α : Type}

/-- The lookup of whole rows of an N-by-W table at an E-by-J-by-1 array of row numbers. -/
abbrev rows3Dims (N E J W : Nat)
    (wf : GatherDims.WF ⟨2, ![N, W]⟩ ⟨3, ![E, J, 1]⟩ ⟨3, ![E, J, W]⟩ [2] [0] [] [0] [] 2 ![1, W]) :
    GatherDims ⟨2, ![N, W]⟩ ⟨3, ![E, J, 1]⟩ ⟨3, ![E, J, W]⟩ where
  offsetDims := [2]
  collapsedSliceDims := [0]
  operandBatchingDims := []
  startIndicesBatchingDims := []
  startIndexMap := [0]
  indexVectorDim := 2
  sliceSizes := ![1, W]
  wf := wf

/-- Entry (e, j, k) of the looked-up rows is entry k of the table's row named by row number (e, j), clamped. -/
theorem gather_rows3_apply {N E J W w : Nat} (hN : 0 < N)
    (wf : GatherDims.WF ⟨2, ![N, W]⟩ ⟨3, ![E, J, 1]⟩ ⟨3, ![E, J, W]⟩ [2] [0] [] [0] [] 2 ![1, W])
    (x : (⟨2, ![N, W]⟩ : Shape).Idx → α) (idx : IVec ⟨3, ![E, J, 1]⟩ w) (e : Fin E) (j : Fin J) (k : Fin W) :
    Host.gather (rows3Dims N E J W wf) x idx (ix3 e j k)
      = x (ix2 (clampRow N hN (idx (ix3 e j (0 : Fin 1)))) k) := by
  unfold Host.gather
  refine congrArg x (funext fun a => Fin.ext ?_)
  match a with
  | ⟨0, _⟩ =>
    show (rows3Dims N E J W wf).start (ix3 e j k) idx 0 + (rows3Dims N E J W wf).batchCoord (ix3 e j k) 0
      + (rows3Dims N E J W wf).offCoord (ix3 e j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N E J W wf).startIndexMap from List.mem_singleton.mpr rfl)]
    have hsi : (rows3Dims N E J W wf).siIdx (ix3 e j k) ⟨List.idxOf (0 : Fin 2) (rows3Dims N E J W wf).startIndexMap,
        List.idxOf_lt_length_iff.2 (List.mem_singleton.mpr rfl)⟩ = ix3 e j (0 : Fin 1) := by
      funext b; refine Fin.ext ?_
      match b with
      | ⟨0, _⟩ => rfl
      | ⟨1, _⟩ => rfl
      | ⟨2, _⟩ => rfl
    rw [hsi]
    rfl
  | ⟨1, _⟩ =>
    show (rows3Dims N E J W wf).start (ix3 e j k) idx 1 + (rows3Dims N E J W wf).batchCoord (ix3 e j k) 1
      + (rows3Dims N E J W wf).offCoord (ix3 e j k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rows3Dims N E J W wf).startIndexMap from h10)]
    unfold GatherDims.offCoord
    rw [dif_pos (show (1 : Fin 2) ∈ (rows3Dims N E J W wf).sKept from
      (GatherDims.mem_sKept _ _).mpr ⟨h10, List.not_mem_nil⟩)]
    rw [Nat.zero_add]
    exact congrArg (fun z : Fin 3 => ((ix3 e j k z).val : ℕ)) (getElem_single_two _ _)

end LibGather3

end
-- ==== Proof.RefValue.lean ====
/-
  The reference's composed term, entry by entry.

  Every row number is zero, which is within the one-row table's bounds, so no position reads the filler; the
  lookup of a one-row table finds its only row whatever the row number; the scale is the position's integer as a
  real, spread over the 1024 entries.  Hence entry (b, s, d) is x(b, s, d) + w(0, d) · n(b, s).
-/
import proofs.«164918_g11751030522053_week1_w4_1432_6_alg».proof.Proof.RefRun
import proofs.«164918_g11751030522053_week1_w4_1432_6_alg».proof.Proof.Spec
import proofs.«164918_g11751030522053_week1_w4_1432_6_alg».proof.Proof.LibAllOnes
import proofs.«164918_g11751030522053_week1_w4_1432_6_alg».proof.Proof.LibGather3
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx

/-- Every row number is zero: zero is not negative, so nothing is added to it. -/
theorem rowNumbers_apply (i : S4x4096x1.Idx) : rowNumbers i = 0#32 := rfl

/-- Zero is within the bounds 0 ≤ r ≤ 0 of a one-row table, at every position. -/
theorem inBounds_rowNumbers (j : S4x4096.Idx) : inBounds rowNumbers j = 1#1 := by
  unfold inBounds
  refine LibAllOnes.reduce_andi_ones _ _ _ _ (fun i => ?_) (fun _ => rfl) j
  show IntOp.andi (IntOp.cmpi .sge (rowNumbers i) 0#32) (IntOp.cmpi .sle (rowNumbers i) 0#32) = 1#1
  rw [rowNumbers_apply]
  decide

/-- The row found at position (b, s), entry d, is the table's only row's entry d. -/
theorem rowFound_apply (w : FVec Ideal S1x1024 .f32) (b : Fin 4) (s : Fin 4096) (d : Fin 1024) :
    rowFound (F := Ideal) w (ix3 b s d) = w (ix2 (0 : Fin 1) d) := by
  unfold rowFound
  rw [select_apply]
  have hmask : broadcastInDim S4x4096x1024 ![0, 1] bcast_S4x4096_S4x4096x1024_0_1 (inBounds rowNumbers) (ix3 b s d) = 1#1 :=
    (broadcastInDim_apply _ _ _ (ix3 b s d) (ix2 b s) (fun a => by
      match a with
      | ⟨0, _⟩ => rfl
      | ⟨1, _⟩ => rfl)).trans (inBounds_rowNumbers _)
  rw [hmask, select_one]
  refine (LibGather3.gather_rows3_apply (N := 1) (E := 4) (J := 4096) (W := 1024) (by decide)
    gather_S1x1024_S4x4096x1_S4x4096x1024_2_0_n_n_0_2_11024_wf w rowNumbers b s d).trans ?_
  exact congrArg (fun r : Fin 1 => w (ix2 r d)) (Subsingleton.elim _ _)

/-- The scale at position (b, s), any entry d, is the position's integer as a real. -/
theorem scale_apply (n : IVec S4x4096 32) (b : Fin 4) (s : Fin 4096) (d : Fin 1024) :
    broadcastInDim S4x4096x1024 ![0, 1, 2] bcast_S4x4096x1_S4x4096x1024_0_1_2
        (sitofp (F := Ideal) .f32 (broadcastInDim S4x4096x1 ![0, 1] bcast_S4x4096_S4x4096x1_0_1 n)) (ix3 b s d)
      = (((n (ix2 b s)).toInt : ℝ) : EReal) := by
  refine (broadcastInDim_apply _ _ _ (ix3 b s d) (ix3 b s (0 : Fin 1)) (fun a => by
    match a with
    | ⟨0, _⟩ => rfl
    | ⟨1, _⟩ => rfl
    | ⟨2, _⟩ => rfl)).trans ?_
  rw [sitofp_apply]
  refine congrArg (fun v : BitVec 32 => (((v.toInt : ℝ) : EReal))) ?_
  exact broadcastInDim_apply _ _ _ (ix3 b s (0 : Fin 1)) (ix2 b s) (fun a => by
    match a with
    | ⟨0, _⟩ => rfl
    | ⟨1, _⟩ => rfl)

/-- The reference's result is the function of the specification, read by position. -/
theorem refOut_eq (x : FVec Ideal S4x4096x1024 .f32) (n : IVec S4x4096 32) (w : FVec Ideal S1x1024 .f32) :
    refOut (F := Ideal) x n w = ScaledRow.byPosition x n w := by
  funext i
  obtain ⟨b, s, d, rfl⟩ : ∃ (b : Fin 4) (s : Fin 4096) (d : Fin 1024), i = ix3 b s d := ⟨i 0, i 1, i 2, eq_ix3 i⟩
  rw [ScaledRow.byPosition_apply]
  unfold refOut
  rw [addf_apply, mulf_apply, rowFound_apply, scale_apply]
  rfl

end Cert.ReferenceIdeal.RefValue

end
-- ==== Proof.lean ====
/-
  The certificate's five claims for the scaled-row kernel against its lookup reference.

  Both programs compute, over the extended reals, the array whose entry (b, s, d) is the input's entry plus entry d
  of the table's one row times the integer of position (b, s).  The kernel reaches it block by block: the
  positions flattened to 16384 rows, eight blocks of 2048 rows, each block the input's block plus the block's
  integers (as floats) times the row, a product that contracts an axis of length one.  The reference reaches it by
  looking the row up at row number zero for every position and scaling it.  The two differ in the order of the two
  factors, which commute; no finiteness is needed, so the precondition is never opened.  The three frames are the
  generated ones (the reference's is its run with the result dropped); the idealization rewrote nothing.
-/
import proofs.«164918_g11751030522053_week1_w4_1432_6_alg».proof.Defs
import proofs.«164918_g11751030522053_week1_w4_1432_6_alg».proof.Proof.Gen.Kernel
import proofs.«164918_g11751030522053_week1_w4_1432_6_alg».proof.Proof.Gen.Kernel.Frame
import proofs.«164918_g11751030522053_week1_w4_1432_6_alg».proof.Proof.Gen.KernelIdeal
import proofs.«164918_g11751030522053_week1_w4_1432_6_alg».proof.Proof.Gen.KernelIdeal.Frame
import proofs.«164918_g11751030522053_week1_w4_1432_6_alg».proof.Proof.Gen.ReferenceIdeal
import proofs.«164918_g11751030522053_week1_w4_1432_6_alg».proof.Proof.Gen.Pre_finite_inputs
import proofs.«164918_g11751030522053_week1_w4_1432_6_alg».proof.Proof.KernelValue
import proofs.«164918_g11751030522053_week1_w4_1432_6_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the same result: the specification read by
    position, of the kernel's arguments. -/
theorem algebraic : Cert.algebraic_KernelIdeal_ReferenceIdeal := by
  intro m ρ m' ρ' _ hagree
  refine ⟨fun c => ScaledRow.byPosition
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
